-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x32x1024 : Shape := ⟨4, ![8, 128, 32, 1024]⟩
abbrev S_ : Shape := ⟨0, ![]⟩

class Facts : Prop where
  bcast_S_S8x128x32x1024 : S_.BroadcastsInDim S8x128x32x1024 (![] : Fin 0 → Fin S8x128x32x1024.rank)
  reducesTo_S8x128x32x1024_S_d0_1_2_3 : S8x128x32x1024.ReducesTo [0, 1, 2, 3] S_
  h_S_ : 0 < S_.numel

variable [Facts]

def fn_part1 {F : FTy → Type} [FloatOps F] (main_v13 : IVec S_ 1) (main_v16 : IVec S8x128x32x1024 1) : IVec S_ 1 :=
  let main_c_5 : IVec S_ 1 := constantI S_ 1 1#1
  let main_v17 : IVec S_ 1 := (fun x v => Host.reduce IntOp.andi x v reducesTo_S8x128x32x1024_S_d0_1_2_3 h_S_) main_v16 main_c_5
  let main_v18 : IVec S_ 1 := andi main_v13 main_v17
  main_v18

def fn {F : FTy → Type} [FloatOps F] (main_arg0 : FVec F S8x128x32x1024 .f32) (main_arg1 : FVec F S8x128x32x1024 .f32) (main_arg2 : FVec F S8x128x32x1024 .f32) (main_arg3 : FVec F S8x128x32x1024 .f32) : IVec S_ 1 :=
  let main_v0 : FVec F S8x128x32x1024 .f32 := Host.absf main_arg0
  let main_cst : FVec F S_ .f32 := constant S_ .f32 0x7F800000#32
  let main_v1 : FVec F S8x128x32x1024 .f32 := broadcastInDim S8x128x32x1024 ![] bcast_S_S8x128x32x1024 main_cst
  let main_v2 : IVec S8x128x32x1024 1 := cmpf .olt main_v0 main_v1
  let main_c : IVec S_ 1 := constantI S_ 1 1#1
  let main_v3 : IVec S_ 1 := (fun x v => Host.reduce IntOp.andi x v reducesTo_S8x128x32x1024_S_d0_1_2_3 h_S_) main_v2 main_c
  let main_v4 : FVec F S8x128x32x1024 .f32 := Host.absf main_arg1
  let main_cst_0 : FVec F S_ .f32 := constant S_ .f32 0x7F800000#32
  let main_v5 : FVec F S8x128x32x1024 .f32 := broadcastInDim S8x128x32x1024 ![] bcast_S_S8x128x32x1024 main_cst_0
  let main_v6 : IVec S8x128x32x1024 1 := cmpf .olt main_v4 main_v5
  let main_c_1 : IVec S_ 1 := constantI S_ 1 1#1
  let main_v7 : IVec S_ 1 := (fun x v => Host.reduce IntOp.andi x v reducesTo_S8x128x32x1024_S_d0_1_2_3 h_S_) main_v6 main_c_1
  let main_v8 : IVec S_ 1 := andi main_v3 main_v7
  let main_v9 : FVec F S8x128x32x1024 .f32 := Host.absf main_arg2
  let main_cst_2 : FVec F S_ .f32 := constant S_ .f32 0x7F800000#32
  let main_v10 : FVec F S8x128x32x1024 .f32 := broadcastInDim S8x128x32x1024 ![] bcast_S_S8x128x32x1024 main_cst_2
  let main_v11 : IVec S8x128x32x1024 1 := cmpf .olt main_v9 main_v10
  let main_c_3 : IVec S_ 1 := constantI S_ 1 1#1
  let main_v12 : IVec S_ 1 := (fun x v => Host.reduce IntOp.andi x v reducesTo_S8x128x32x1024_S_d0_1_2_3 h_S_) main_v11 main_c_3
  let main_v13 : IVec S_ 1 := andi main_v8 main_v12
  let main_v14 : FVec F S8x128x32x1024 .f32 := Host.absf main_arg3
  let main_cst_4 : FVec F S_ .f32 := constant S_ .f32 0x7F800000#32
  let main_v15 : FVec F S8x128x32x1024 .f32 := broadcastInDim S8x128x32x1024 ![] bcast_S_S8x128x32x1024 main_cst_4
  let main_v16 : IVec S8x128x32x1024 1 := cmpf .olt main_v14 main_v15
  fn_part1 (F := F) main_v13 main_v16
-- ==== Kernel.lean ====
abbrev S8x128x32x1024 : Shape := ⟨4, ![8, 128, 32, 1024]⟩
abbrev S8x1024x128x32 : Shape := ⟨4, ![8, 1024, 128, 32]⟩
abbrev S1x16x32x1024 : Shape := ⟨4, ![1, 16, 32, 1024]⟩
abbrev S1x1024x16x32 : Shape := ⟨4, ![1, 1024, 16, 32]⟩

abbrev nBuf : Space → Nat
  | .hbm => 5
  | .vmem => 10
  | .smem => 0
  | _ => 0

abbrev bufTy : (tb : Table) → Fin (tcTables nBuf tb) → BufTy
  | .hbm, ⟨0, _⟩ => ⟨S8x128x32x1024, .f32⟩
  | .hbm, ⟨1, _⟩ => ⟨S8x128x32x1024, .f32⟩
  | .hbm, ⟨2, _⟩ => ⟨S8x128x32x1024, .f32⟩
  | .hbm, ⟨3, _⟩ => ⟨S8x128x32x1024, .f32⟩
  | .hbm, ⟨4, _⟩ => ⟨S8x1024x128x32, .f32⟩
  | .local _ .vmem, ⟨0, _⟩ => ⟨S1x16x32x1024, .f32⟩
  | .local _ .vmem, ⟨1, _⟩ => ⟨S1x16x32x1024, .f32⟩
  | .local _ .vmem, ⟨2, _⟩ => ⟨S1x16x32x1024, .f32⟩
  | .local _ .vmem, ⟨3, _⟩ => ⟨S1x16x32x1024, .f32⟩
  | .local _ .vmem, ⟨4, _⟩ => ⟨S1x16x32x1024, .f32⟩
  | .local _ .vmem, ⟨5, _⟩ => ⟨S1x16x32x1024, .f32⟩
  | .local _ .vmem, ⟨6, _⟩ => ⟨S1x16x32x1024, .f32⟩
  | .local _ .vmem, ⟨7, _⟩ => ⟨S1x16x32x1024, .f32⟩
  | .local _ .vmem, ⟨8, _⟩ => ⟨S1x1024x16x32, .f32⟩
  | .local _ .vmem, ⟨9, _⟩ => ⟨S1x1024x16x32, .f32⟩
  | _, _ => ⟨S8x128x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x16x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x16x32x1024_S1x16x32x1024_0_0_0_0 : ∀ a, (![0, 0, 0, 0] : Fin 4 → Nat) a + S1x16x32x1024.size a ≤ S1x16x32x1024.size a
  h_S1x16x32x1024 : 0 < S1x16x32x1024.numel
  rotates_S1x16x32x1024_d3 : S1x16x32x1024.Rotates 3 none
  iota_S1x16x32x1024_d3_w32 : S1x16x32x1024.Iotas .tc 32 [3]
  transposes_S1x16x32x1024_p0_3_1_2_S1x1024x16x32 : S1x16x32x1024.Transposes [0, 3, 1, 2] S1x1024x16x32
  inb_S1x1024x16x32_S1x1024x16x32_0_0_0_0 : ∀ a, (![0, 0, 0, 0] : Fin 4 → Nat) a + S1x1024x16x32.size a ≤ S1x1024x16x32.size a
  h_S1x1024x16x32 : 0 < S1x1024x16x32.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32x1024.size a ≤ S8x128x32x1024.size a
  hwx0_0 : ∀ i : grid0.Coords, EltTy.bits .f32 = 32 ∨ (Rect.block (s := S8x128x32x1024) S1x16x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x32x1024.size a ≤ S8x128x32x1024.size a
  hwx0_1 : ∀ i : grid0.Coords, EltTy.bits .f32 = 32 ∨ (Rect.block (s := S8x128x32x1024) S1x16x32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x32x1024.size a ≤ S8x128x32x1024.size a
  hwx0_2 : ∀ i : grid0.Coords, EltTy.bits .f32 = 32 ∨ (Rect.block (s := S8x128x32x1024) S1x16x32x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x32x1024.size a ≤ S8x128x32x1024.size a
  hwx0_3 : ∀ i : grid0.Coords, EltTy.bits .f32 = 32 ∨ (Rect.block (s := S8x128x32x1024) S1x16x32x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x16x32.size a ≤ S8x1024x128x32.size a
  hwx0_4 : ∀ i : grid0.Coords, EltTy.bits .f32 = 32 ∨ (Rect.block (s := S8x1024x128x32) S1x1024x16x32.size (cc0_transform_4 i) (hinb0_4 i)).WholeWords (EltTy.packing .f32)

variable [Facts₀]

abbrev win0_0 : Pipeline.Window sig grid0 :=
  Pipeline.Window.ofSpec (Memref.whole main_arg0) S1x16x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x32x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x16x32x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x16x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128x32x1024 : Shape := ⟨4, ![8, 128, 32, 1024]⟩
abbrev S_ : Shape := ⟨0, ![]⟩
abbrev S8x128x32x1028 : Shape := ⟨4, ![8, 128, 32, 1028]⟩
abbrev S8x128x32x1026 : Shape := ⟨4, ![8, 128, 32, 1026]⟩
abbrev S8x128x32x1025 : Shape := ⟨4, ![8, 128, 32, 1025]⟩
abbrev S8x1024x128x32 : Shape := ⟨4, ![8, 1024, 128, 32]⟩

abbrev nBuf : Space → Nat
  | .hbm => 83
  | .vmem => 0
  | .smem => 0
  | _ => 0

abbrev bufTy : (tb : Table) → Fin (tcTables nBuf tb) → BufTy
  | .hbm, ⟨0, _⟩ => ⟨S8x128x32x1024, .f32⟩
  | .hbm, ⟨1, _⟩ => ⟨S8x128x32x1024, .f32⟩
  | .hbm, ⟨2, _⟩ => ⟨S8x128x32x1024, .f32⟩
  | .hbm, ⟨3, _⟩ => ⟨S8x128x32x1024, .f32⟩
  | .hbm, ⟨4, _⟩ => ⟨S_, .f32⟩
  | .hbm, ⟨5, _⟩ => ⟨S8x128x32x1024, .f32⟩
  | .hbm, ⟨6, _⟩ => ⟨S8x128x32x1024, .f32⟩
  | .hbm, ⟨7, _⟩ => ⟨S_, .i32⟩
  | .hbm, ⟨8, _⟩ => ⟨S_, .f32⟩
  | .hbm, ⟨9, _⟩ => ⟨S8x128x32x1028, .f32⟩
  | .hbm, ⟨10, _⟩ => ⟨S8x128x32x1024, .f32⟩
  | .hbm, ⟨11, _⟩ => ⟨S_, .f32⟩
  | .hbm, ⟨12, _⟩ => ⟨S8x128x32x1024, .f32⟩
  | .hbm, ⟨13, _⟩ => ⟨S8x128x32x1024, .f32⟩
  | .hbm, ⟨14, _⟩ => ⟨S8x128x32x1024, .f32⟩
  | .hbm, ⟨15, _⟩ => ⟨S_, .f32⟩
  | .hbm, ⟨16, _⟩ => ⟨S8x128x32x1024, .f32⟩
  | .hbm, ⟨17, _⟩ => ⟨S8x128x32x1024, .f32⟩
  | .hbm, ⟨18, _⟩ => ⟨S_, .i32⟩
  | .hbm, ⟨19, _⟩ => ⟨S_, .f32⟩
  | .hbm, ⟨20, _⟩ => ⟨S8x128x32x1028, .f32⟩
  | .hbm, ⟨21, _⟩ => ⟨S8x128x32x1024, .f32⟩
  | .hbm, ⟨22, _⟩ => ⟨S_, .f32⟩
  | .hbm, ⟨23, _⟩ => ⟨S8x128x32x1024, .f32⟩
  | .hbm, ⟨24, _⟩ => ⟨S8x128x32x1024, .f32⟩
  | .hbm, ⟨25, _⟩ => ⟨S8x128x32x1024, .f32⟩
  | .hbm, ⟨26, _⟩ => ⟨S8x128x32x1024, .f32⟩
  | .hbm, ⟨27, _⟩ => ⟨S_, .f32⟩
  | .hbm, ⟨28, _⟩ => ⟨S8x128x32x1024, .f32⟩
  | .hbm, ⟨29, _⟩ => ⟨S8x128x32x1024, .f32⟩
  | .hbm, ⟨30, _⟩ => ⟨S_, .f32⟩
  | .hbm, ⟨31, _⟩ => ⟨S8x128x32x1024, .f32⟩
  | .hbm, ⟨32, _⟩ => ⟨S8x128x32x1024, .f32⟩
  | .hbm, ⟨33, _⟩ => ⟨S_, .i32⟩
  | .hbm, ⟨34, _⟩ => ⟨S_, .f32⟩
  | .hbm, ⟨35, _⟩ => ⟨S8x128x32x1026, .f32⟩
  | .hbm, ⟨36, _⟩ => ⟨S8x128x32x1024, .f32⟩
  | .hbm, ⟨37, _⟩ => ⟨S_, .f32⟩
  | .hbm, ⟨38, _⟩ => ⟨S8x128x32x1024, .f32⟩
  | .hbm, ⟨39, _⟩ => ⟨S8x128x32x1024, .f32⟩
  | .hbm, ⟨40, _⟩ => ⟨S8x128x32x1024, .f32⟩
  | .hbm, ⟨41, _⟩ => ⟨S_, .f32⟩
  | .hbm, ⟨42, _⟩ => ⟨S8x128x32x1024, .f32⟩
  | .hbm, ⟨43, _⟩ => ⟨S8x128x32x1024, .f32⟩
  | .hbm, ⟨44, _⟩ => ⟨S_, .i32⟩
  | .hbm, ⟨45, _⟩ => ⟨S_, .f32⟩
  | .hbm, ⟨46, _⟩ => ⟨S8x128x32x1026, .f32⟩
  | .hbm, ⟨47, _⟩ => ⟨S8x128x32x1024, .f32⟩
  | .hbm, ⟨48, _⟩ => ⟨S_, .f32⟩
  | .hbm, ⟨49, _⟩ => ⟨S8x128x32x1024, .f32⟩
  | .hbm, ⟨50, _⟩ => ⟨S8x128x32x1024, .f32⟩
  | .hbm, ⟨51, _⟩ => ⟨S8x128x32x1024, .f32⟩
  | .hbm, ⟨52, _⟩ => ⟨S8x128x32x1024, .f32⟩
  | .hbm, ⟨53, _⟩ => ⟨S_, .f32⟩
  | .hbm, ⟨54, _⟩ => ⟨S8x128x32x1024, .f32⟩
  | .hbm, ⟨55, _⟩ => ⟨S8x128x32x1024, .f32⟩
  | .hbm, ⟨56, _⟩ => ⟨S_, .f32⟩
  | .hbm, ⟨57, _⟩ => ⟨S8x128x32x1024, .f32⟩
  | .hbm, ⟨58, _⟩ => ⟨S8x128x32x1024, .f32⟩
  | .hbm, ⟨59, _⟩ => ⟨S_, .i32⟩
  | .hbm, ⟨60, _⟩ => ⟨S_, .f32⟩
  | .hbm, ⟨61, _⟩ => ⟨S8x128x32x1025, .f32⟩
  | .hbm, ⟨62, _⟩ => ⟨S8x128x32x1024, .f32⟩
  | .hbm, ⟨63, _⟩ => ⟨S_, .f32⟩
  | .hbm, ⟨64, _⟩ => ⟨S8x128x32x1024, .f32⟩
  | .hbm, ⟨65, _⟩ => ⟨S8x128x32x1024, .f32⟩
  | .hbm, ⟨66, _⟩ => ⟨S8x128x32x1024, .f32⟩
  | .hbm, ⟨67, _⟩ => ⟨S_, .f32⟩
  | .hbm, ⟨68, _⟩ => ⟨S8x128x32x1024, .f32⟩
  | .hbm, ⟨69, _⟩ => ⟨S8x128x32x1024, .f32⟩
  | .hbm, ⟨70, _⟩ => ⟨S_, .i32⟩
  | .hbm, ⟨71, _⟩ => ⟨S_, .f32⟩
  | .hbm, ⟨72, _⟩ => ⟨S8x128x32x1025, .f32⟩
  | .hbm, ⟨73, _⟩ => ⟨S8x128x32x1024, .f32⟩
  | .hbm, ⟨74, _⟩ => ⟨S_, .f32⟩
  | .hbm, ⟨75, _⟩ => ⟨S8x128x32x1024, .f32⟩
  | .hbm, ⟨76, _⟩ => ⟨S8x128x32x1024, .f32⟩
  | .hbm, ⟨77, _⟩ => ⟨S8x128x32x1024, .f32⟩
  | .hbm, ⟨78, _⟩ => ⟨S8x128x32x1024, .f32⟩
  | .hbm, ⟨79, _⟩ => ⟨S_, .f32⟩
  | .hbm, ⟨80, _⟩ => ⟨S8x128x32x1024, .f32⟩
  | .hbm, ⟨81, _⟩ => ⟨S8x128x32x1024, .f32⟩
  | .hbm, ⟨82, _⟩ => ⟨S8x1024x128x32, .f32⟩
  | _, _ => ⟨S8x128x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_call2_v0 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_c_9 : Ref sig .tc := ⟨.hbm, 44, rfl⟩
abbrev main_call3_v0 : Ref sig .tc := ⟨.hbm, 45, rfl⟩
abbrev main_v26 : Ref sig .tc := ⟨.hbm, 46, rfl⟩
abbrev main_v27 : Ref sig .tc := ⟨.hbm, 47, rfl⟩
abbrev main_cst_10 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_c_13 : Ref sig .tc := ⟨.hbm, 59, rfl⟩
abbrev main_call4_v0 : Ref sig .tc := ⟨.hbm, 60, rfl⟩
abbrev main_v36 : Ref sig .tc := ⟨.hbm, 61, rfl⟩
abbrev main_v37 : Ref sig .tc := ⟨.hbm, 62, rfl⟩
abbrev main_cst_14 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_15 : Ref sig .tc := ⟨.hbm, 67, rfl⟩
abbrev main_v41 : Ref sig .tc := ⟨.hbm, 68, rfl⟩
abbrev main_v42 : Ref sig .tc := ⟨.hbm, 69, rfl⟩
abbrev main_c_16 : Ref sig .tc := ⟨.hbm, 70, rfl⟩
abbrev main_call5_v0 : Ref sig .tc := ⟨.hbm, 71, rfl⟩
abbrev main_v43 : Ref sig .tc := ⟨.hbm, 72, rfl⟩
abbrev main_v44 : Ref sig .tc := ⟨.hbm, 73, rfl⟩
abbrev main_cst_17 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_18 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  bcast_S_S8x128x32x1024 : S_.BroadcastsInDim S8x128x32x1024 (![] : Fin 0 → Fin S8x128x32x1024.rank)
  pads_S8x128x32x1024_S8x128x32x1028_000_000_000_400 : S8x128x32x1024.Pads (![0, 0, 0, 4] : Fin 4 → Nat) ![0, 0, 0, 0] ![0, 0, 0, 0] S8x128x32x1028
  h_S_ : 0 < S_.numel
  slices_S8x128x32x1028_S8x128x32x1024_0_0_0_0 : S8x128x32x1028.Slices ![0, 0, 0, 0] S8x128x32x1024
  pads_S8x128x32x1024_S8x128x32x1026_000_000_000_200 : S8x128x32x1024.Pads (![0, 0, 0, 2] : Fin 4 → Nat) ![0, 0, 0, 0] ![0, 0, 0, 0] S8x128x32x1026
  slices_S8x128x32x1026_S8x128x32x1024_0_0_0_0 : S8x128x32x1026.Slices ![0, 0, 0, 0] S8x128x32x1024
  pads_S8x128x32x1024_S8x128x32x1025_000_000_000_100 : S8x128x32x1024.Pads (![0, 0, 0, 1] : Fin 4 → Nat) ![0, 0, 0, 0] ![0, 0, 0, 0] S8x128x32x1025
  slices_S8x128x32x1025_S8x128x32x1024_0_0_0_0 : S8x128x32x1025.Slices ![0, 0, 0, 0] S8x128x32x1024
  transposes_S8x128x32x1024_S8x1024x128x32_0_3_1_2 : S8x128x32x1024.Transposes [0, 3, 1, 2] S8x1024x128x32

variable [Facts₀]

class Facts : Prop extends Facts₀ where

variable [Facts]
-- ==== Proof.LibStepBack.lean ====
/-
  A signal shifted along one axis, read at an index.

  "The entry `d` places before `j` along axis `a`, or a fill value when `j` is fewer than `d` places in" is written here
  once, as a partial map on the indices of a shape (`stepBack a d`) and the read through it (`prev`), so that the
  spellings of a right shift by `d` with fill can each be read to the same form:

  * `select_rotate_apply` — a rotation by `d` places around the end of the axis (`tpu.dynamic_rotate`, no stride),
    masked to a splat of the fill wherever the rotation brought the end of the signal around: at `j` it is `prev`;
  * `sge_ofNat_iff` — the mask that does it compares the position along the axis with `d` as signed 32-bit words,
    which for two numbers below 2³¹ is the comparison of the numbers;
  * `prev_comp` — reading through an embedding of index types that commutes with stepping back (a block of an array
    whose shifted axis is whole in the block) commutes with `prev`.

  Nothing here depends on a float instance or on any program.
-/
import Idealize.ShloMosaic.Lib.KernelVsHost
import Idealize.ShloMosaic.Lib.Affine

namespace Cert.Synth

open Idealize.ShloMosaic

section Prev
variable {α ι κ : Type}

/-- The entry of `x` one step back from `j`, or the fill `z` where there is no step back. -/
def prev (back : ι → Option ι) (z : α) (x : ι → α) (j : ι) : α :=
  match back j with
  | some k => x k
  | none => z

/-- Stepping back commutes with an embedding `e` of index types: the entry before `e j` is the image of the entry
    before `j`. -/
theorem prev_comp (e : ι → κ) (backι : ι → Option ι) (backκ : κ → Option κ)
    (hb : ∀ j, backκ (e j) = (backι j).map e) (z : α) (X : κ → α) (j : ι) :
    prev backκ z X (e j) = prev backι z (fun i => X (e i)) j := by
  unfold prev
  rw [hb j]
  cases backι j <;> rfl

end Prev

section StepBack
variable {s : Shape} {α : Type}

/-- The index `d` places before `j` along axis `a`, when `j` is at least `d` places in. -/
def stepBack (a : Fin s.rank) (d : Nat) (j : s.Idx) : Option s.Idx :=
  if d ≤ (j a).val then
    some fun b => ⟨if b = a then (j b).val - d else (j b).val, by
      have hb := (j b).isLt
      split <;> omega⟩
  else none

theorem stepBack_of_le (a : Fin s.rank) (d : Nat) (j : s.Idx) (h : d ≤ (j a).val) :
    stepBack a d j = some fun b => ⟨if b = a then (j b).val - d else (j b).val, by
      have hb := (j b).isLt
      split <;> omega⟩ := if_pos h

theorem stepBack_of_not_le (a : Fin s.rank) (d : Nat) (j : s.Idx) (h : ¬ d ≤ (j a).val) :
    stepBack a d j = none := if_neg h

/-- A SHIFT SPELT AS A MASKED ROTATION. The signal rotated by `d` places around the end of axis `a` holds at `j` the
    entry `d` places before `j` from place `d` on, and what came around the end before that; a mask `c` that is on
    exactly from place `d` on keeps the former and puts the fill `z` in place of the latter. -/
theorem select_rotate_apply (a : Fin s.rank) (sb : BitVec 32) (x : s.Idx → α) (hr : s.Rotates a none)
    (c : IVec s 1) (z : α) (j : s.Idx) (hd : sb.toNat < s.size a)
    (hc : c j = 1#1 ↔ sb.toNat ≤ (j a).val) :
    select c (dynamicRotate a sb none x hr) (broadcast s z) j = prev (stepBack a sb.toNat) z x j := by
  show Scalar.select (c j) (dynamicRotate a sb none x hr j) z = _
  unfold Scalar.select prev
  by_cases h : sb.toNat ≤ (j a).val
  · rw [if_pos (show c j = 1 from hc.mpr h), stepBack_of_le a _ j h]
    refine dynamicRotate_apply a sb x hr j _ (fun b => ?_)
    show (if b = a then (j b).val - sb.toNat else (j b).val) = _
    by_cases hb : b = a
    · subst hb
      rw [if_pos rfl, if_pos rfl, Nat.mod_eq_of_lt hd]
      have hj := (j b).isLt
      rw [show (j b).val + s.size b - sb.toNat = ((j b).val - sb.toNat) + s.size b by omega, Nat.add_mod_right,
        Nat.mod_eq_of_lt (by omega)]
    · rw [if_neg hb, if_neg hb]
  · rw [if_neg (fun hh : c j = 1 => h (hc.mp hh)), stepBack_of_not_le a _ j h]

end StepBack

/-- The mask's comparison: on 32-bit words of two small numbers, signed "at least" is "at least". -/
theorem sge_ofNat_iff (n d : Nat) (hn : n < 2 ^ 31) (hd : d < 2 ^ 31) :
    IntOp.cmpi .sge (BitVec.ofNat 32 n) (BitVec.ofNat 32 d) = 1#1 ↔ d ≤ n := by
  rw [IntOp.cmpi_sge]
  have e1 : (BitVec.ofNat 32 n).toInt = (n : Int) := by
    rw [BitVec.toInt_eq_toNat_of_lt (by rw [BitVec.toNat_ofNat]; omega), BitVec.toNat_ofNat]; omega
  have e2 : (BitVec.ofNat 32 d).toInt = (d : Int) := by
    rw [BitVec.toInt_eq_toNat_of_lt (by rw [BitVec.toNat_ofNat]; omega), BitVec.toNat_ofNat]; omega
  rw [e1, e2]
  omega

end Cert.Synth
-- ==== Proof.Synth.lean ====
/-
  One level of the inverse stationary Haar transform, entry by entry.

  A level takes the running signal `x` and a detail signal `det` and returns, at every entry `j`,

      ((s · x j + s · x⁻ j) + (s · det j + ns · det⁻ j)) · h

  where `x⁻ j` is the entry of `x` a fixed number `d` of places before `j` along the time axis, and a fill value `z`
  when there is no such entry (the first `d` places). Nothing below uses any property of the sum and the product: the
  level is written over an arbitrary index type with a partial "step back" map and two arbitrary binary operations, so
  that the same definition reads a block of the signal and the whole signal, and a level read through an embedding of
  index types that commutes with stepping back is the level of the signals read through it (`level_comp`).

  The read one step back (`prev`), the step back on the indices of a shape (`stepBack`) and the spellings of a shift
  read to them are in Proof/LibStepBack.lean.
-/
import proofs.«138911_j78400333021538_2_alg».proof.Proof.LibStepBack

namespace Cert.Synth

open Idealize.ShloMosaic

section Level
variable {α ι κ : Type}

/-- One synthesis level at entry `j`: the low-pass pair of the running signal plus the high-pass pair of the detail,
    halved — in exactly this grouping and operand order. -/
def level (mul add : α → α → α) (s ns h z : α) (back : ι → Option ι) (x det : ι → α) : ι → α :=
  fun j => mul (add (add (mul s (x j)) (mul s (prev back z x j)))
                    (add (mul s (det j)) (mul ns (prev back z det j)))) h

/-- A level of two signals, read through an embedding `e` of index types that commutes with stepping back (`hb`), is
    the level of the signals read through it. -/
theorem level_comp (mul add : α → α → α) (s ns h z : α) (e : ι → κ) (backι : ι → Option ι) (backκ : κ → Option κ)
    (hb : ∀ j, backκ (e j) = (backι j).map e) (X D : κ → α) (j : ι) :
    level mul add s ns h z backκ X D (e j)
      = level mul add s ns h z backι (fun i => X (e i)) (fun i => D (e i)) j := by
  unfold level
  rw [prev_comp e backι backκ hb, prev_comp e backι backκ hb]

end Level

end Cert.Synth
-- ==== Proof.KernelLevels.lean ====
/-
  The kernel's body, read as three synthesis levels.

  The body loads the four blocks (approximation, then the details of levels 3, 2 and 1), and computes, along the last
  (time) axis of a block, three levels of the inverse stationary Haar transform with steps back of 4, 2 and 1 places.
  It spells "the entry `d` places back, or zero" as a rotation by `d` places around the end of the axis, masked by
  "position ≥ d" (the position from an iota along the axis) to a zero splat: `spelt d x det` is one level in that
  spelling. Here `spelt d x det` is shown to be the `Cert.Synth.level` of its operands with the step back of `d` places
  along axis 3, at any float instance: only the mask and the rotation are read, the arithmetic is kept as it is printed.
  The value the body stores is the third level with its time axis moved to second place.
-/
import proofs.«138911_j78400333021538_2_alg».proof.Proof.Gen.KernelIdeal.Skeleton
import proofs.«138911_j78400333021538_2_alg».proof.Proof.Synth

noncomputable section

namespace Cert.KernelIdeal.Levels

open Cert.KernelIdeal Cert.KernelIdeal.Gen Idealize.ShloMosaic Cert.Synth

variable {F : FTy → Type} [FloatOps F]

/-- One level on a block, stepping back `d` places along the time axis (axis 3): the filter coefficient, its negative
    and the half are the three printed words, the fill is the zero word. -/
abbrev lvl (d : Nat) (x det : FVec F S1x16x32x1024 .f32) : FVec F S1x16x32x1024 .f32 :=
  level FloatOps.mulf FloatOps.addf (FloatOps.ofBits .f32 0x3F3504F3#32) (FloatOps.ofBits .f32 0xBF3504F3#32)
    (FloatOps.ofBits .f32 0x3F000000#32) (FloatOps.ofBits .f32 0x00000000#32) (stepBack (s := S1x16x32x1024) 3 d) x det

/-- The mask "position along the time axis ≥ d". -/
abbrev mask (d : Nat) : IVec S1x16x32x1024 1 :=
  cmpi .sge (iota .tc S1x16x32x1024 32 [3] Facts₀.iota_S1x16x32x1024_d3_w32) (broadcast S1x16x32x1024 (BitVec.ofNat 32 d))

/-- A block shifted right by `d` places along the time axis with zero fill, as the body spells it: rotated around the
    end of the axis, and masked to a zero splat before place `d`. -/
abbrev shiftedBy (d : Nat) (x : FVec F S1x16x32x1024 .f32) : FVec F S1x16x32x1024 .f32 :=
  select (mask d) (dynamicRotate 3 (BitVec.ofNat 32 d) none x Facts₀.rotates_S1x16x32x1024_d3)
    (broadcast S1x16x32x1024 (FloatOps.ofBits .f32 0x00000000#32))

/-- One level as the body spells it, on whole blocks. -/
abbrev spelt (d : Nat) (x det : FVec F S1x16x32x1024 .f32) : FVec F S1x16x32x1024 .f32 :=
  mulf (addf (addf (mulf (broadcast S1x16x32x1024 (FloatOps.ofBits .f32 0x3F3504F3#32)) x)
                   (mulf (broadcast S1x16x32x1024 (FloatOps.ofBits .f32 0x3F3504F3#32)) (shiftedBy d x)))
             (addf (mulf (broadcast S1x16x32x1024 (FloatOps.ofBits .f32 0x3F3504F3#32)) det)
                   (mulf (broadcast S1x16x32x1024 (FloatOps.ofBits .f32 0xBF3504F3#32)) (shiftedBy d det))))
       (broadcast S1x16x32x1024 (FloatOps.ofBits .f32 0x3F000000#32))

/-- The mask is on at `j` exactly when `j` is at least `d` places in. -/
theorem mask_iff (d : Nat) (hd : d < 2 ^ 31) (j : S1x16x32x1024.Idx) : mask d j = 1#1 ↔ d ≤ (j 3).val := by
  show IntOp.cmpi .sge (BitVec.ofNat 32 (0 * 1024 + (j 3).val)) (BitVec.ofNat 32 d) = 1#1 ↔ _
  rw [Nat.zero_mul, Nat.zero_add]
  have hj : (j 3).val < 1024 := (j 3).isLt
  exact sge_ofNat_iff _ _ (by omega) hd

/-- The masked rotation by `d` places, at `j`: the entry `d` places back, or the zero word. -/
theorem shiftedBy_apply (d : Nat) (hd : d < 1024) (x : FVec F S1x16x32x1024 .f32) (j : S1x16x32x1024.Idx) :
    shiftedBy d x j = prev (stepBack (s := S1x16x32x1024) 3 d) (FloatOps.ofBits .f32 0x00000000#32) x j := by
  have ht : (BitVec.ofNat 32 d).toNat = d := by rw [BitVec.toNat_ofNat]; omega
  have h := select_rotate_apply (s := S1x16x32x1024) 3 (BitVec.ofNat 32 d) x Facts₀.rotates_S1x16x32x1024_d3
    (mask d) (FloatOps.ofBits .f32 0x00000000#32) j (by rw [ht]; exact hd) (by rw [ht]; exact mask_iff d (by omega) j)
  rw [ht] at h
  exact h

/-- The body's spelling of a level is the level. -/
theorem spelt_eq (d : Nat) (hd : d < 1024) (x det : FVec F S1x16x32x1024 .f32) : spelt d x det = lvl d x det := by
  funext j
  show FloatOps.mulf (FloatOps.addf (FloatOps.addf (FloatOps.mulf _ (x j)) (FloatOps.mulf _ (shiftedBy d x j)))
    (FloatOps.addf (FloatOps.mulf _ (det j)) (FloatOps.mulf _ (shiftedBy d det j)))) _ = _
  rw [shiftedBy_apply d hd x j, shiftedBy_apply d hd det j]
  rfl

/-- What the body stores, over its four loaded blocks: the three levels in the body's spelling, transposed. -/
theorem stored_spelt (x0 x1 x2 x3 : Vec F S1x16x32x1024 .f32) :
    k0_pay1 (k0_pay5 x2 (k0_pay3 x0 x1) (k0_pay4 x0 x1) (iota .tc S1x16x32x1024 32 [3] Facts₀.iota_S1x16x32x1024_d3_w32) 2#32)
        (k0_pay6 x3) (k0_pay7 x3) k0_pay8 (Scalar.ofBits .f32 0x00000000#32)
      = transpose S1x1024x16x32 [0, 3, 1, 2] (spelt 1 (spelt 2 (spelt 4 x0 x1) x2) x3)
          Facts₀.transposes_S1x16x32x1024_p0_3_1_2_S1x1024x16x32 := rfl

/-- What the body stores: the third level of the second of the first, its time axis moved to second place. -/
theorem stored_eq (x0 x1 x2 x3 : Vec F S1x16x32x1024 .f32) :
    k0_pay1 (k0_pay5 x2 (k0_pay3 x0 x1) (k0_pay4 x0 x1) (iota .tc S1x16x32x1024 32 [3] Facts₀.iota_S1x16x32x1024_d3_w32) 2#32)
        (k0_pay6 x3) (k0_pay7 x3) k0_pay8 (Scalar.ofBits .f32 0x00000000#32)
      = transpose S1x1024x16x32 [0, 3, 1, 2] (lvl 1 (lvl 2 (lvl 4 x0 x1) x2) x3)
          Facts₀.transposes_S1x16x32x1024_p0_3_1_2_S1x1024x16x32 := by
  rw [stored_spelt, spelt_eq 4 (by decide), spelt_eq 2 (by decide), spelt_eq 1 (by decide)]

end Cert.KernelIdeal.Levels

end
-- ==== Proof.Spec.lean ====
/-
  The specification: the inverse stationary Haar transform of three levels, as ONE function of the four arrays.

  The arguments are the approximation `a` and the details `d3`, `d2`, `d1`, each an array [8, 128, 32, 1024] whose last
  axis is time. With `x₃ = a`, a level with step `d` sends the running signal `x` and a detail `det` to

      x' t = ((s · x t + s · x (t − d)) + (s · det t + (−s) · det (t − d))) · ½,

  an entry before the start of the time axis read as zero (`Cert.Synth.level` with `stepBack 3 d`), `s` the word of
  0.70710677 and `−s` its negative; the steps are 4, 2 and 1. The result is the third level with the time axis moved
  to second place: an array [8, 1024, 128, 32] whose entry (b, t, n, c) is entry (b, n, c, t) of the third level.
  The zero that fills the front is written as the integer zero converted to a float, the form in which it is read off
  a pad; at the exact values it is the number 0, as is the zero word.
-/
import Idealize.ShloMosaic.PureOps.Ideal.Laws
import proofs.«138911_j78400333021538_2_alg».proof.Proof.Synth

noncomputable section

namespace Cert.Spec

open Idealize.ShloMosaic Cert.Synth

variable {F : FTy → Type} [FloatOps F]

/-- The shape of each argument array: [batch, n, c, time]. -/
abbrev Arr : Shape := ⟨4, ![8, 128, 32, 1024]⟩
/-- The shape of the result: [batch, time, n, c]. -/
abbrev Out : Shape := ⟨4, ![8, 1024, 128, 32]⟩

/-- One level on the whole arrays, stepping back `d` places along the time axis. -/
abbrev lvl (d : Nat) (x det : FVec F Arr .f32) : FVec F Arr .f32 :=
  level FloatOps.mulf FloatOps.addf (FloatOps.ofBits .f32 0x3F3504F3#32) (FloatOps.ofBits .f32 0xBF3504F3#32)
    (FloatOps.ofBits .f32 0x3F000000#32) (FloatOps.sitofp .f32 (0#32 : BitVec 32)) (stepBack (s := Arr) 3 d) x det

/-- The entry of the level arrays that entry `i` of the result holds: (b, t, n, c) ↦ (b, n, c, t). -/
def toArr (i : Out.Idx) : Arr.Idx := fun a => match a with
  | ⟨0, _⟩ => ⟨(i 0).val, (i 0).isLt⟩
  | ⟨1, _⟩ => ⟨(i 2).val, (i 2).isLt⟩
  | ⟨2, _⟩ => ⟨(i 3).val, (i 3).isLt⟩
  | ⟨3, _⟩ => ⟨(i 1).val, (i 1).isLt⟩

/-- The result, index by index. -/
def result (a d3 d2 d1 : FVec F Arr .f32) : FVec F Out .f32 :=
  fun i => lvl 1 (lvl 2 (lvl 4 a d3) d2) d1 (toArr i)

/-- At the exact values the zero word and the converted integer zero are the same number. -/
theorem zero_word_eq : (FloatOps.ofBits .f32 0x00000000#32 : Ideal .f32) = FloatOps.sitofp .f32 (0#32 : BitVec 32) := by
  show Ideal.ofBits .f32 0x00000000#32 = ((((0#32 : BitVec 32).toInt : ℤ) : ℝ) : EReal)
  rw [Ideal.ofBits_zero_f32]
  simp

end Cert.Spec

end
-- ==== Proof.Blocks.lean ====
/-
  From blocks to the array: what the kernel's run leaves in the result array, at the exact values.

  The grid has 8 × 8 points; point (b, n) reads, of each argument array [8, 128, 32, 1024], the block of batch `b` and
  rows 16n … 16n + 15 with both inner axes whole, and writes, of the result array [8, 1024, 128, 32], the block of batch
  `b`, all 1024 times, rows 16n … 16n + 15 and all 32 columns. The time axis is whole in every block, so stepping back
  along it stays inside a block: the embedding `inArr` of an input block into its array commutes with `stepBack 3 d`,
  and by `Cert.Synth.level_comp` a level of the arrays, read inside a block, is the level of the blocks. What point `t`
  writes back is therefore block `t` of the specification (`flushed_eq`); the 64 blocks tile the result array
  (`cover`); so the array ends holding the specification (`final`), and the run is re-posted with it (`run`).
  The body's zero fill is the zero word, the specification's the converted integer zero: the same number at the exact
  values, which is the one place where the instance matters.
-/
import proofs.«138911_j78400333021538_2_alg».proof.Proof.Gen.KernelIdeal.Value
import proofs.«138911_j78400333021538_2_alg».proof.Proof.KernelLevels
import proofs.«138911_j78400333021538_2_alg».proof.Proof.Spec

set_option maxRecDepth 16384

noncomputable section

namespace Cert.KernelIdeal.Blocks

open Cert.KernelIdeal Cert.KernelIdeal.Gen Idealize.ShloMosaic Idealize.ShloMosaic.TcCoe Idealize.SL.Sem Cert.Synth
open Idealize.ShloMosaic.Pipeline (Dat)

variable (m : (ℓ : Loc nD τ sig) → Buf (Elt Ideal) ℓ) (ρ : Dev nD → PrngReg)

theorem offsets_zero : (![0, 0, 0, 0] : Fin 4 → Nat) = fun _ => 0 := funext fun a => by fin_cases a <;> rfl

/-! ## The index maps, decided over the 64 grid points -/

/-- The output window's block index at point `t`: the time axis and the columns whole, batch and tile in range. -/
theorem idx_out : ∀ t : Fin cfg0.N, win0_4.index t (1 : Fin 4) = 0 ∧ win0_4.index t (3 : Fin 4) = 0
    ∧ win0_4.index t (0 : Fin 4) < 8 ∧ win0_4.index t (2 : Fin 4) < 8 :=
  (by decide +kernel : ∀ t : Fin grid0.N, _)

/-- Input window 0's block index at point `t`, against the output's: same batch, same tile of 16, the two inner axes whole. -/
theorem idx_in0 : ∀ t : Fin cfg0.N, win0_0.index t (0 : Fin 4) = win0_4.index t (0 : Fin 4)
    ∧ win0_0.index t (1 : Fin 4) = win0_4.index t (2 : Fin 4)
    ∧ win0_0.index t (2 : Fin 4) = 0 ∧ win0_0.index t (3 : Fin 4) = 0 :=
  (by decide +kernel : ∀ t : Fin grid0.N, _)

/-- Input window 1's block index at point `t`, against the output's: same batch, same tile of 16, the two inner axes whole. -/
theorem idx_in1 : ∀ t : Fin cfg0.N, win0_1.index t (0 : Fin 4) = win0_4.index t (0 : Fin 4)
    ∧ win0_1.index t (1 : Fin 4) = win0_4.index t (2 : Fin 4)
    ∧ win0_1.index t (2 : Fin 4) = 0 ∧ win0_1.index t (3 : Fin 4) = 0 :=
  (by decide +kernel : ∀ t : Fin grid0.N, _)

/-- Input window 2's block index at point `t`, against the output's: same batch, same tile of 16, the two inner axes whole. -/
theorem idx_in2 : ∀ t : Fin cfg0.N, win0_2.index t (0 : Fin 4) = win0_4.index t (0 : Fin 4)
    ∧ win0_2.index t (1 : Fin 4) = win0_4.index t (2 : Fin 4)
    ∧ win0_2.index t (2 : Fin 4) = 0 ∧ win0_2.index t (3 : Fin 4) = 0 :=
  (by decide +kernel : ∀ t : Fin grid0.N, _)

/-- Input window 3's block index at point `t`, against the output's: same batch, same tile of 16, the two inner axes whole. -/
theorem idx_in3 : ∀ t : Fin cfg0.N, win0_3.index t (0 : Fin 4) = win0_4.index t (0 : Fin 4)
    ∧ win0_3.index t (1 : Fin 4) = win0_4.index t (2 : Fin 4)
    ∧ win0_3.index t (2 : Fin 4) = 0 ∧ win0_3.index t (3 : Fin 4) = 0 :=
  (by decide +kernel : ∀ t : Fin grid0.N, _)

/-- Every (batch, tile) is some point's. -/
theorem idx_onto : ∀ (b n : Fin 8), ∃ t : Fin cfg0.N, win0_4.index t (0 : Fin 4) = b.val ∧ win0_4.index t (2 : Fin 4) = n.val :=
  (by decide +kernel : ∀ (b n : Fin 8), ∃ t : Fin grid0.N, win0_4.index t (0 : Fin 4) = b.val ∧ win0_4.index t (2 : Fin 4) = n.val)

/-! ## An input block inside its array -/

/-- Where entry `y` of the input block of batch `b` and tile `n` sits in the array: batch `b`, row `16 n + y₁`, and
    `y`'s own column and time. -/
def inArr (b n : Nat) (hb : b < 8) (hn : n < 8) (y : S1x16x32x1024.Idx) : S8x128x32x1024.Idx :=
  fun a => ⟨![b, n * 16, 0, 0] a + (y a).val, by
    match a with
    | ⟨0, _⟩ => have h : (y 0).val < 1 := (y 0).isLt; show b + (y 0).val < 8; omega
    | ⟨1, _⟩ => have h : (y 1).val < 16 := (y 1).isLt; show n * 16 + (y 1).val < 128; omega
    | ⟨2, _⟩ => have h : (y 2).val < 32 := (y 2).isLt; show 0 + (y 2).val < 32; omega
    | ⟨3, _⟩ => have h : (y 3).val < 1024 := (y 3).isLt; show 0 + (y 3).val < 1024; omega⟩

/-- Stepping back along the time axis stays inside the block: the place before `inArr y` is `inArr` of the place
    before `y`. -/
theorem stepBack_inArr (d : Nat) (b n : Nat) (hb : b < 8) (hn : n < 8) (y : S1x16x32x1024.Idx) :
    stepBack (s := S8x128x32x1024) 3 d (inArr b n hb hn y)
      = (stepBack (s := S1x16x32x1024) 3 d y).map (inArr b n hb hn) := by
  have h3 : (inArr b n hb hn y 3).val = (y 3).val := by show 0 + (y 3).val = _; omega
  by_cases h : d ≤ (y 3).val
  · rw [stepBack_of_le (s := S1x16x32x1024) 3 d y h,
      stepBack_of_le (s := S8x128x32x1024) 3 d (inArr b n hb hn y) (by rw [h3]; exact h)]
    refine congrArg some (funext fun a => Fin.ext ?_)
    show (if a = 3 then (![b, n * 16, 0, 0] a + (y a).val) - d else ![b, n * 16, 0, 0] a + (y a).val)
      = ![b, n * 16, 0, 0] a + (if a = 3 then (y a).val - d else (y a).val)
    by_cases ha : a = 3
    · subst ha
      rw [if_pos rfl, if_pos rfl]
      show (0 + (y 3).val) - d = 0 + ((y 3).val - d)
      omega
    · rw [if_neg ha, if_neg ha]
  · rw [stepBack_of_not_le (s := S1x16x32x1024) 3 d y h,
      stepBack_of_not_le (s := S8x128x32x1024) 3 d (inArr b n hb hn y) (by rw [h3]; exact h)]
    rfl

/-- A level of the arrays, read inside a block, is the level of the blocks. -/
theorem lvl_block (d : Nat) (b n : Nat) (hb : b < 8) (hn : n < 8) (X D : FVec Ideal S8x128x32x1024 .f32) :
    (fun y => Spec.lvl d X D (inArr b n hb hn y))
      = Levels.lvl d (fun y => X (inArr b n hb hn y)) (fun y => D (inArr b n hb hn y)) := by
  funext y
  show _ = level FloatOps.mulf FloatOps.addf _ _ _ (FloatOps.ofBits .f32 0x00000000#32) _ _ _ y
  rw [Spec.zero_word_eq]
  exact level_comp _ _ _ _ _ _ (inArr b n hb hn) _ _ (stepBack_inArr d b n hb hn) X D y

/-- Each input window's block at point `t` sits in its array at `inArr` of the point's batch and tile. -/
theorem emb_in0 (t : Fin cfg0.N) (y : S1x16x32x1024.Idx) :
    ((cfg0.win 0).blk t).view.emb y = inArr (win0_4.index t (0 : Fin 4)) (win0_4.index t (2 : Fin 4)) (idx_out t).2.2.1 (idx_out t).2.2.2 y := by
  obtain ⟨e0, e1, e2, e3⟩ := idx_in0 t
  funext a; apply Fin.ext
  match a with
  | ⟨0, _⟩ => show win0_0.index t (0 : Fin 4) * 1 + 1 * (y 0).val = win0_4.index t (0 : Fin 4) + (y 0).val; omega
  | ⟨1, _⟩ => show win0_0.index t (1 : Fin 4) * 16 + 1 * (y 1).val = win0_4.index t (2 : Fin 4) * 16 + (y 1).val; omega
  | ⟨2, _⟩ => show win0_0.index t (2 : Fin 4) * 32 + 1 * (y 2).val = 0 + (y 2).val; omega
  | ⟨3, _⟩ => show win0_0.index t (3 : Fin 4) * 1024 + 1 * (y 3).val = 0 + (y 3).val; omega

theorem emb_in1 (t : Fin cfg0.N) (y : S1x16x32x1024.Idx) :
    ((cfg0.win 1).blk t).view.emb y = inArr (win0_4.index t (0 : Fin 4)) (win0_4.index t (2 : Fin 4)) (idx_out t).2.2.1 (idx_out t).2.2.2 y := by
  obtain ⟨e0, e1, e2, e3⟩ := idx_in1 t
  funext a; apply Fin.ext
  match a with
  | ⟨0, _⟩ => show win0_1.index t (0 : Fin 4) * 1 + 1 * (y 0).val = win0_4.index t (0 : Fin 4) + (y 0).val; omega
  | ⟨1, _⟩ => show win0_1.index t (1 : Fin 4) * 16 + 1 * (y 1).val = win0_4.index t (2 : Fin 4) * 16 + (y 1).val; omega
  | ⟨2, _⟩ => show win0_1.index t (2 : Fin 4) * 32 + 1 * (y 2).val = 0 + (y 2).val; omega
  | ⟨3, _⟩ => show win0_1.index t (3 : Fin 4) * 1024 + 1 * (y 3).val = 0 + (y 3).val; omega

theorem emb_in2 (t : Fin cfg0.N) (y : S1x16x32x1024.Idx) :
    ((cfg0.win 2).blk t).view.emb y = inArr (win0_4.index t (0 : Fin 4)) (win0_4.index t (2 : Fin 4)) (idx_out t).2.2.1 (idx_out t).2.2.2 y := by
  obtain ⟨e0, e1, e2, e3⟩ := idx_in2 t
  funext a; apply Fin.ext
  match a with
  | ⟨0, _⟩ => show win0_2.index t (0 : Fin 4) * 1 + 1 * (y 0).val = win0_4.index t (0 : Fin 4) + (y 0).val; omega
  | ⟨1, _⟩ => show win0_2.index t (1 : Fin 4) * 16 + 1 * (y 1).val = win0_4.index t (2 : Fin 4) * 16 + (y 1).val; omega
  | ⟨2, _⟩ => show win0_2.index t (2 : Fin 4) * 32 + 1 * (y 2).val = 0 + (y 2).val; omega
  | ⟨3, _⟩ => show win0_2.index t (3 : Fin 4) * 1024 + 1 * (y 3).val = 0 + (y 3).val; omega

theorem emb_in3 (t : Fin cfg0.N) (y : S1x16x32x1024.Idx) :
    ((cfg0.win 3).blk t).view.emb y = inArr (win0_4.index t (0 : Fin 4)) (win0_4.index t (2 : Fin 4)) (idx_out t).2.2.1 (idx_out t).2.2.2 y := by
  obtain ⟨e0, e1, e2, e3⟩ := idx_in3 t
  funext a; apply Fin.ext
  match a with
  | ⟨0, _⟩ => show win0_3.index t (0 : Fin 4) * 1 + 1 * (y 0).val = win0_4.index t (0 : Fin 4) + (y 0).val; omega
  | ⟨1, _⟩ => show win0_3.index t (1 : Fin 4) * 16 + 1 * (y 1).val = win0_4.index t (2 : Fin 4) * 16 + (y 1).val; omega
  | ⟨2, _⟩ => show win0_3.index t (2 : Fin 4) * 32 + 1 * (y 2).val = 0 + (y 2).val; omega
  | ⟨3, _⟩ => show win0_3.index t (3 : Fin 4) * 1024 + 1 * (y 3).val = 0 + (y 3).val; omega

/-- So each input block is its argument array read through `inArr`. -/
theorem iblk0_eq (c : Dev nD) (t : Fin cfg0.N) :
    iblk m c 0 t = fun y => V m c main_arg0 (inArr (win0_4.index t (0 : Fin 4)) (win0_4.index t (2 : Fin 4)) (idx_out t).2.2.1 (idx_out t).2.2.2 y) := by
  funext y
  show V m c main_arg0 (((cfg0.win 0).blk t).view.emb y) = _
  rw [emb_in0]

theorem iblk1_eq (c : Dev nD) (t : Fin cfg0.N) :
    iblk m c 1 t = fun y => V m c main_arg1 (inArr (win0_4.index t (0 : Fin 4)) (win0_4.index t (2 : Fin 4)) (idx_out t).2.2.1 (idx_out t).2.2.2 y) := by
  funext y
  show V m c main_arg1 (((cfg0.win 1).blk t).view.emb y) = _
  rw [emb_in1]

theorem iblk2_eq (c : Dev nD) (t : Fin cfg0.N) :
    iblk m c 2 t = fun y => V m c main_arg2 (inArr (win0_4.index t (0 : Fin 4)) (win0_4.index t (2 : Fin 4)) (idx_out t).2.2.1 (idx_out t).2.2.2 y) := by
  funext y
  show V m c main_arg2 (((cfg0.win 2).blk t).view.emb y) = _
  rw [emb_in2]

theorem iblk3_eq (c : Dev nD) (t : Fin cfg0.N) :
    iblk m c 3 t = fun y => V m c main_arg3 (inArr (win0_4.index t (0 : Fin 4)) (win0_4.index t (2 : Fin 4)) (idx_out t).2.2.1 (idx_out t).2.2.2 y) := by
  funext y
  show V m c main_arg3 (((cfg0.win 3).blk t).view.emb y) = _
  rw [emb_in3]

/-! ## The output block inside the result array -/

/-- The entry of a block of level values that the body's transposition puts at entry `y` of the output block:
    (0, t, r, c) ↦ (0, r, c, t). -/
def src (y : S1x1024x16x32.Idx) : S1x16x32x1024.Idx := fun a => match a with
  | ⟨0, _⟩ => ⟨(y 0).val, (y 0).isLt⟩
  | ⟨1, _⟩ => ⟨(y 2).val, (y 2).isLt⟩
  | ⟨2, _⟩ => ⟨(y 3).val, (y 3).isLt⟩
  | ⟨3, _⟩ => ⟨(y 1).val, (y 1).isLt⟩

/-- Entry `y` of the output block at point `t` sits in the result array where the specification reads the level arrays
    at `inArr` of the transposed entry. -/
theorem toArr_emb_out (t : Fin cfg0.N) (y : S1x1024x16x32.Idx) :
    Spec.toArr (((cfg0.win 4).blk t).view.emb y)
      = inArr (win0_4.index t (0 : Fin 4)) (win0_4.index t (2 : Fin 4)) (idx_out t).2.2.1 (idx_out t).2.2.2 (src y) := by
  obtain ⟨o1, o3, -, -⟩ := idx_out t
  funext a; apply Fin.ext
  match a with
  | ⟨0, _⟩ => show win0_4.index t (0 : Fin 4) * 1 + 1 * (y 0).val = win0_4.index t (0 : Fin 4) + (y 0).val; omega
  | ⟨1, _⟩ => show win0_4.index t (2 : Fin 4) * 16 + 1 * (y 2).val = win0_4.index t (2 : Fin 4) * 16 + (y 2).val; omega
  | ⟨2, _⟩ => show win0_4.index t (3 : Fin 4) * 32 + 1 * (y 3).val = 0 + (y 3).val; omega
  | ⟨3, _⟩ => show win0_4.index t (1 : Fin 4) * 1024 + 1 * (y 1).val = 0 + (y 1).val; omega

/-- One entry of a transposed block of third-level values read inside the arrays: it is the specification's entry at
    any index `i` of the result array whose level entry is `inArr` of the transposed block entry. -/
theorem block_entry (X0 X1 X2 X3 : FVec Ideal S8x128x32x1024 .f32) (b n : Nat) (hb : b < 8) (hn : n < 8)
    (y : S1x1024x16x32.Idx) (i : S8x1024x128x32.Idx) (hi : Spec.toArr i = inArr b n hb hn (src y)) :
    transpose S1x1024x16x32 [0, 3, 1, 2]
        (fun y' => Spec.lvl 1 (Spec.lvl 2 (Spec.lvl 4 X0 X1) X2) X3 (inArr b n hb hn y'))
        Facts₀.transposes_S1x16x32x1024_p0_3_1_2_S1x1024x16x32 y
      = Spec.result (F := Ideal) X0 X1 X2 X3 i := by
  refine (transpose_apply (s := S1x16x32x1024) (t := S1x1024x16x32) [0, 3, 1, 2] _ _ y (src y) (fun b => match b with
    | ⟨0, _⟩ => rfl
    | ⟨1, _⟩ => rfl
    | ⟨2, _⟩ => rfl
    | ⟨3, _⟩ => rfl)).trans ?_
  unfold Spec.result
  rw [hi]

/-- WHAT POINT `t` WRITES BACK is block `t` of the specification of the argument arrays. -/
theorem flushed_eq (c : Dev nD) (t : Fin cfg0.N) :
    (dats m 0 c).flushed 4 t = ((cfg0.win 4).blk t).view.read (Elt Ideal)
      (Spec.result (F := Ideal) (V m c main_arg0) (V m c main_arg1) (V m c main_arg2) (V m c main_arg3)) := by
  rw [Value.flushed4]
  unfold out0_4
  rw [View.canon_unit_zero offsets_zero]
  simp only [View.ld_unit_zero (S := S1x16x32x1024) offsets_zero]
  rw [Levels.stored_eq, iblk0_eq, iblk1_eq, iblk2_eq, iblk3_eq]
  have h4 := lvl_block 4 _ _ (idx_out t).2.2.1 (idx_out t).2.2.2 (V m c main_arg0) (V m c main_arg1)
  have h2 := lvl_block 2 _ _ (idx_out t).2.2.1 (idx_out t).2.2.2 (Spec.lvl 4 (V m c main_arg0) (V m c main_arg1)) (V m c main_arg2)
  have h1 := lvl_block 1 _ _ (idx_out t).2.2.1 (idx_out t).2.2.2
    (Spec.lvl 2 (Spec.lvl 4 (V m c main_arg0) (V m c main_arg1)) (V m c main_arg2)) (V m c main_arg3)
  rw [h4] at h2
  rw [h2] at h1
  rw [← h1]
  funext y
  exact block_entry (V m c main_arg0) (V m c main_arg1) (V m c main_arg2) (V m c main_arg3) _ _ _ _ y _ (toArr_emb_out t y)

/-! ## The blocks tile the result array -/

/-- An index of the result array is in point `t`'s block iff each coordinate is in the block's range on its axis. -/
theorem mem_blk (t : Fin cfg0.N) (i : S8x1024x128x32.Idx) :
    i ∈ ((cfg0.win 4).blk t).view.set ↔ ∀ a : Fin 4, win0_4.index t a * S1x1024x16x32.size a ≤ (i a).val
      ∧ (i a).val < win0_4.index t a * S1x1024x16x32.size a + S1x1024x16x32.size a := by
  show i ∈ ((View.whole main_v0).slice (win0_4.rect t)).set ↔ _
  rw [View.set_slice_whole, Rect.mem_set_unit]
  exact Iff.rfl

/-- Every index of the result array is in the block of the point of its batch and of its row's tile. -/
theorem cover (i : S8x1024x128x32.Idx) :
    ∃ t : Fin cfg0.N, (cfg0.win 4).flush t = true ∧ i ∈ ((cfg0.win 4).blk t).view.set := by
  have hi0 : (i 0).val < 8 := (i 0).isLt
  have hi1 : (i 1).val < 1024 := (i 1).isLt
  have hi2 : (i 2).val < 128 := (i 2).isLt
  have hi3 : (i 3).val < 32 := (i 3).isLt
  obtain ⟨t, q0, q2⟩ := idx_onto ⟨(i 0).val, hi0⟩ ⟨(i 2).val / 16, by omega⟩
  have q0' : win0_4.index t (0 : Fin 4) = (i 0).val := q0
  have q2' : win0_4.index t (2 : Fin 4) = (i 2).val / 16 := q2
  obtain ⟨o1, o3, -, -⟩ := idx_out t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1024 ≤ (i 1).val ∧ (i 1).val < win0_4.index t (1 : Fin 4) * 1024 + 1024; omega
  | ⟨2, _⟩ => show win0_4.index t (2 : Fin 4) * 16 ≤ (i 2).val ∧ (i 2).val < win0_4.index t (2 : Fin 4) * 16 + 16; omega
  | ⟨3, _⟩ => show win0_4.index t (3 : Fin 4) * 32 ≤ (i 3).val ∧ (i 3).val < win0_4.index t (3 : Fin 4) * 32 + 32; omega

/-- THE RESULT ARRAY after the run is the specification of the argument arrays as launched. -/
theorem final (c : Dev nD) :
    (dats m 0 c).arrAt 4 cfg0.N = Spec.result (F := Ideal) (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) cover

/-- The kernel's run re-posted: the result array at the specification, the arguments unchanged. -/
theorem run : θ_run defs (onTc (τ := τ) (main (F := Ideal))) ⟨m, fun _ => 0, ρ⟩ fun r => ∀ c : Dev nD,
      r.2.mem ((c : Thread nD τ).loc main_v0) = Spec.result (F := Ideal) (m ((c : Thread nD τ).loc main_arg0))
          (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefLevels.lean ====
/-
  The reference, read as three synthesis levels.

  The reference computes the same three levels on the whole arrays. It spells "the entry `d` places back, or zero" as
  a pad of `d` places in front of the time axis (axis 3) with the converted integer zero, cut back to the first 1024
  places: `shiftedBy d … x`. A pad read inside the operand is the operand, and the padding value in the front margin,
  so at entry `i` this is the entry `d` places before `i` from place `d` on and the padding value before it. Each of
  the stages that end a level (`%16`, `%33`, `%50`) is then one `Cert.Synth.level` of the stage before and the next
  detail array, with the step back of 4, 2 and 1 places, at any float instance: the arithmetic is kept as printed.
-/
import proofs.«138911_j78400333021538_2_alg».proof.Proof.Gen.ReferenceIdeal.Read
import proofs.«138911_j78400333021538_2_alg».proof.Proof.Synth
import proofs.«138911_j78400333021538_2_alg».proof.Proof.Spec

noncomputable section

namespace Cert.ReferenceIdeal.Levels

open Cert.ReferenceIdeal Cert.ReferenceIdeal.Gen Cert.ReferenceIdeal.Read Idealize.ShloMosaic Cert.Synth

variable {F : FTy → Type} [FloatOps F]

/-- The whole-array shape with `d` more places on the time axis. -/
abbrev Padded (d : Nat) : Shape := ⟨4, ![8, 128, 32, 1024 + d]⟩

/-- A pad of `d` places in front of the time axis, read at the index with the coordinates of `i`: the entry `d` places
    before `i`, or the padding value. -/
theorem pad_front_apply {α : Type} (d : Nat)
    (hp : S8x128x32x1024.Pads ![0, 0, 0, d] ![0, 0, 0, 0] ![0, 0, 0, 0] (Padded d))
    (x : S8x128x32x1024.Idx → α) (v : S_.Idx → α) (hu : 0 < S_.numel) (i : S8x128x32x1024.Idx) (jt : (Padded d).Idx)
    (hj : ∀ a : Fin 4, (jt a).val = (i a).val) :
    pad (Padded d) ![0, 0, 0, d] ![0, 0, 0, 0] ![0, 0, 0, 0] x v hp hu jt
      = prev (stepBack (s := S8x128x32x1024) 3 d) (v (Shape.Idx.first hu)) x i := by
  unfold prev
  by_cases h : d ≤ (i 3).val
  · rw [stepBack_of_le (s := S8x128x32x1024) 3 d i h]
    refine pad_apply_of_inside _ _ _ x v hp hu jt _ (fun a => ?_)
    match a with
    | ⟨0, _⟩ => show (jt 0).val = 0 + (i 0).val * (0 + 1); rw [hj 0]; omega
    | ⟨1, _⟩ => show (jt 1).val = 0 + (i 1).val * (0 + 1); rw [hj 1]; omega
    | ⟨2, _⟩ => show (jt 2).val = 0 + (i 2).val * (0 + 1); rw [hj 2]; omega
    | ⟨3, _⟩ => show (jt 3).val = d + ((i 3).val - d) * (0 + 1); rw [hj 3]; omega
  · rw [stepBack_of_not_le (s := S8x128x32x1024) 3 d i h]
    refine pad_apply_of_not_inside _ _ _ x v hp hu jt (3 : Fin 4) (fun hin => h ?_)
    have h3 : d ≤ (jt 3).val := hin.1
    rw [hj 3] at h3
    exact h3

/-- An array shifted right by `d` places along the time axis, as the reference spells it: padded in front with the
    converted integer zero and cut back to the array's shape. -/
abbrev shiftedBy (d : Nat) (hp : S8x128x32x1024.Pads ![0, 0, 0, d] ![0, 0, 0, 0] ![0, 0, 0, 0] (Padded d))
    (hs : (Padded d).Slices ![0, 0, 0, 0] S8x128x32x1024) (x : FVec F S8x128x32x1024 .f32) : FVec F S8x128x32x1024 .f32 :=
  extractStridedSlice S8x128x32x1024 ![0, 0, 0, 0]
    (pad (Padded d) ![0, 0, 0, d] ![0, 0, 0, 0] ![0, 0, 0, 0] x (sitofp .f32 (constantI S_ 32 0#32) : FVec F S_ .f32) hp Gen.h_S_) hs

theorem shiftedBy_apply (d : Nat) (hp : S8x128x32x1024.Pads ![0, 0, 0, d] ![0, 0, 0, 0] ![0, 0, 0, 0] (Padded d))
    (hs : (Padded d).Slices ![0, 0, 0, 0] S8x128x32x1024) (x : FVec F S8x128x32x1024 .f32) (i : S8x128x32x1024.Idx) :
    shiftedBy d hp hs x i
      = prev (stepBack (s := S8x128x32x1024) 3 d) (FloatOps.sitofp .f32 (0#32 : BitVec 32)) x i := by
  have hlt : ∀ a : Fin 4, (i a).val < (Padded d).size a := fun a => by
    have ha := (i a).isLt
    match a with
    | ⟨0, _⟩ => exact ha
    | ⟨1, _⟩ => exact ha
    | ⟨2, _⟩ => exact ha
    | ⟨3, _⟩ => show (i 3).val < 1024 + d; have h3 : (i 3).val < 1024 := (i 3).isLt; omega
  refine (extractStridedSlice_apply (s := Padded d) (t := S8x128x32x1024) ![0, 0, 0, 0] _ hs i (fun a => ⟨(i a).val, hlt a⟩) (fun a => ?_)).trans ?_
  · match a with
    | ⟨0, _⟩ => show (i 0).val = 0 + (i 0).val; omega
    | ⟨1, _⟩ => show (i 1).val = 0 + (i 1).val; omega
    | ⟨2, _⟩ => show (i 2).val = 0 + (i 2).val; omega
    | ⟨3, _⟩ => show (i 3).val = 0 + (i 3).val; omega
  · exact pad_front_apply d hp x _ Gen.h_S_ i _ (fun _ => rfl)

/-- One level as the reference spells it, on whole arrays. -/
abbrev spelt (d : Nat) (hp : S8x128x32x1024.Pads ![0, 0, 0, d] ![0, 0, 0, 0] ![0, 0, 0, 0] (Padded d))
    (hs : (Padded d).Slices ![0, 0, 0, 0] S8x128x32x1024) (x det : FVec F S8x128x32x1024 .f32) : FVec F S8x128x32x1024 .f32 :=
  mulf (addf (addf (mulf (broadcastInDim S8x128x32x1024 ![] Gen.bcast_S_S8x128x32x1024 (constant S_ .f32 0x3F3504F3#32)) x)
                   (mulf (broadcastInDim S8x128x32x1024 ![] Gen.bcast_S_S8x128x32x1024 (constant S_ .f32 0x3F3504F3#32)) (shiftedBy d hp hs x)))
             (addf (mulf (broadcastInDim S8x128x32x1024 ![] Gen.bcast_S_S8x128x32x1024 (constant S_ .f32 0x3F3504F3#32)) det)
                   (mulf (broadcastInDim S8x128x32x1024 ![] Gen.bcast_S_S8x128x32x1024 (constant S_ .f32 0xBF3504F3#32)) (shiftedBy d hp hs det))))
       (broadcastInDim S8x128x32x1024 ![] Gen.bcast_S_S8x128x32x1024 (constant S_ .f32 0x3F000000#32))

/-- The reference's spelling of a level is the level. -/
theorem spelt_eq (d : Nat) (hp : S8x128x32x1024.Pads ![0, 0, 0, d] ![0, 0, 0, 0] ![0, 0, 0, 0] (Padded d))
    (hs : (Padded d).Slices ![0, 0, 0, 0] S8x128x32x1024) (x det : FVec F S8x128x32x1024 .f32) :
    spelt d hp hs x det = Spec.lvl d x det := by
  funext i
  show FloatOps.mulf (FloatOps.addf (FloatOps.addf (FloatOps.mulf _ (x i)) (FloatOps.mulf _ (shiftedBy d hp hs x i)))
    (FloatOps.addf (FloatOps.mulf _ (det i)) (FloatOps.mulf _ (shiftedBy d hp hs det i)))) _ = _
  rw [shiftedBy_apply d hp hs x i, shiftedBy_apply d hp hs det i]
  rfl

/-- The three stages that end a level, in the reference's spelling. -/
theorem v16_spelt (x0 x1 : FVec F S8x128x32x1024 .f32) :
    val_main_v16 x0 x1 = spelt 4 Gen.pads_S8x128x32x1024_S8x128x32x1028_000_000_000_400 Gen.slices_S8x128x32x1028_S8x128x32x1024_0_0_0_0 x0 x1 := rfl
theorem v33_spelt (x0 x1 x2 : FVec F S8x128x32x1024 .f32) :
    val_main_v33 x0 x1 x2 = spelt 2 Gen.pads_S8x128x32x1024_S8x128x32x1026_000_000_000_200 Gen.slices_S8x128x32x1026_S8x128x32x1024_0_0_0_0 (val_main_v16 x0 x1) x2 := rfl
theorem v50_spelt (x0 x1 x2 x3 : FVec F S8x128x32x1024 .f32) :
    val_main_v50 x0 x1 x2 x3 = spelt 1 Gen.pads_S8x128x32x1024_S8x128x32x1025_000_000_000_100 Gen.slices_S8x128x32x1025_S8x128x32x1024_0_0_0_0 (val_main_v33 x0 x1 x2) x3 := rfl

/-- The reference's result is the specification: the third level of the second of the first, read at the entry
    (b, n, c, t) for the result's entry (b, t, n, c). -/
theorem result_eq (x0 x1 x2 x3 : FVec F S8x128x32x1024 .f32) :
    val_main_v51 x0 x1 x2 x3 = Spec.result x0 x1 x2 x3 := by
  funext i
  rw [val_main_v51_apply, v50_spelt, spelt_eq, v33_spelt, spelt_eq, v16_spelt, spelt_eq]
  have hi : idx_main_v51 i = Spec.toArr i := funext fun a => match a with
    | ⟨0, _⟩ => rfl
    | ⟨1, _⟩ => rfl
    | ⟨2, _⟩ => rfl
    | ⟨3, _⟩ => rfl
  rw [hi]
  rfl

end Cert.ReferenceIdeal.Levels

end
-- ==== Proof.lean ====
/-
  The kernel and the reference compute the same inverse stationary Haar transform of three levels.

  Both programs take the approximation and the three detail arrays [8, 128, 32, 1024] and apply, along the last (time)
  axis, the levels with steps 4, 2 and 1:

      x' t = ((s · x t + s · x (t − d)) + (s · det t + (−s) · det (t − d))) · ½,   entries before the start read as zero,

  and return the last level with the time axis moved to second place, [8, 1024, 128, 32]. The two programs apply the
  SAME operations to the same operands in the same order with the same four words (s, −s, ½ and zero), so no law of
  arithmetic is used and the precondition is never opened; they differ only in how the shift is spelt — the kernel
  rotates a block around the end of the time axis and masks the first `d` places to a zero splat, the reference pads
  `d` zeros in front and cuts the array back — and in that the kernel works block by block, one block of 16 rows per
  grid point, the time axis whole in each.

  Proof/Spec.lean states the result as one function of the four arrays; Proof/Synth.lean has the level over an
  arbitrary index type and its transport along an embedding; Proof/KernelLevels.lean reads the kernel's body as three
  levels of its blocks, Proof/Blocks.lean carries them to the whole result array, Proof/RefLevels.lean reads the
  reference's stages as the same three levels. The three frames are the generated ones (the reference's its run with
  the result dropped), and the kernel's idealization rewrote nothing, so `preserves` is trivial.
-/
import proofs.«138911_j78400333021538_2_alg».proof.Defs
import proofs.«138911_j78400333021538_2_alg».proof.Proof.Gen.Kernel
import proofs.«138911_j78400333021538_2_alg».proof.Proof.Gen.Kernel.Skeleton
import proofs.«138911_j78400333021538_2_alg».proof.Proof.Gen.Kernel.Launch
import proofs.«138911_j78400333021538_2_alg».proof.Proof.Gen.Kernel.Points
import proofs.«138911_j78400333021538_2_alg».proof.Proof.Gen.Kernel.Frame
import proofs.«138911_j78400333021538_2_alg».proof.Proof.Gen.KernelIdeal
import proofs.«138911_j78400333021538_2_alg».proof.Proof.Gen.KernelIdeal.Skeleton
import proofs.«138911_j78400333021538_2_alg».proof.Proof.Gen.KernelIdeal.Launch
import proofs.«138911_j78400333021538_2_alg».proof.Proof.Gen.KernelIdeal.Points
import proofs.«138911_j78400333021538_2_alg».proof.Proof.Gen.KernelIdeal.Frame
import proofs.«138911_j78400333021538_2_alg».proof.Proof.Gen.ReferenceIdeal
import proofs.«138911_j78400333021538_2_alg».proof.Proof.Gen.Pre_finite_inputs
import proofs.«138911_j78400333021538_2_alg».proof.Proof.Gen.KernelIdeal.Value
import proofs.«138911_j78400333021538_2_alg».proof.Proof.Gen.ReferenceIdeal.Run
import proofs.«138911_j78400333021538_2_alg».proof.Proof.Gen.ReferenceIdeal.Read
import proofs.«138911_j78400333021538_2_alg».proof.Proof.Blocks
import proofs.«138911_j78400333021538_2_alg».proof.Proof.RefLevels
import Idealize.ShloMosaic.Adequacy
import Idealize.ShloMosaic.Init

noncomputable section

namespace Cert.Proof

open Idealize.ShloMosaic Idealize.SL.Sem

/-- The word-level kernel runs, faults nowhere and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arrays, the kernel's result array ends at the specification of its arguments
    (the blocks carried to the array) and the reference's at the specification of its own (its stages read as levels):
    equal, entry by entry. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.Levels.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
